-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x1 : Shape := ⟨2, ![800000, 1]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S800000x1 .f32) (main_arg2 : IVec S800000 32) (main_arg3 : IVec S800000 32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S800000x1 : Shape := ⟨2, ![800000, 1]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S_ : Shape := ⟨0, ![]⟩
abbrev S50000 : Shape := ⟨1, ![50000]⟩
abbrev S800000x128 : Shape := ⟨2, ![800000, 128]⟩
abbrev S8000x1 : Shape := ⟨2, ![8000, 1]⟩
abbrev S8000x128 : Shape := ⟨2, ![8000, 128]⟩
abbrev S50000x1 : Shape := ⟨2, ![50000, 1]⟩
abbrev S5000x1 : Shape := ⟨2, ![5000, 1]⟩

abbrev nBuf : Space → Nat
  | .hbm => 49
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S50000x128, .f32⟩
  | .hbm, ⟨11, _⟩ => ⟨S50000x128, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000, .f32⟩
  | .hbm, ⟨26, _⟩ => ⟨S800000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S50000x1, .f32⟩
  | .hbm, ⟨48, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S8000x1, .f32⟩
  | .local _ .vmem, ⟨11, _⟩ => ⟨S8000x1, .f32⟩
  | .local _ .vmem, ⟨12, _⟩ => ⟨S8000x1, .f32⟩
  | .local _ .vmem, ⟨13, _⟩ => ⟨S8000x1, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S800000x1_S800000 : S800000x1.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S8000x1_S8000x128 : S8000x1.Broadcasts S8000x128
  bcast_S_S50000x128 : S_.BroadcastsInDim S50000x128 (![] : Fin 0 → Fin S50000x128.rank)
  bcast_S50000_S50000x1_0 : S50000.BroadcastsInDim S50000x1 (![0] : Fin 1 → Fin S50000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S800000x1.size a
  hwx1_0 : ∀ i : grid1.Coords, EltTy.bits .f32 = 32 ∨ (Rect.block (s := S800000x1) S8000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S800000x1.size a
  hwx1_1 : ∀ i : grid1.Coords, EltTy.bits .f32 = 32 ∨ (Rect.block (s := S800000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S800000x128.size a
  hwx1_2 : ∀ i : grid1.Coords, EltTy.bits .f32 = 32 ∨ (Rect.block (s := S800000x128) S8000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .f32 = 32 ∨ (Rect.block (s := S800000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S8000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2_1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x1 : Shape := ⟨2, ![800000, 1]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S50000 : Shape := ⟨1, ![50000]⟩
abbrev S800000x128 : Shape := ⟨2, ![800000, 128]⟩
abbrev S50000x1 : Shape := ⟨2, ![50000, 1]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S50000x128, .f32⟩
  | .hbm, ⟨10, _⟩ => ⟨S1x128, .f32⟩
  | .hbm, ⟨11, _⟩ => ⟨S50000x128, .f32⟩
  | .hbm, ⟨12, _⟩ => ⟨S50000x128, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000, .f32⟩
  | .hbm, ⟨27, _⟩ => ⟨S800000, .f32⟩
  | .hbm, ⟨28, _⟩ => ⟨S800000, .f32⟩
  | .hbm, ⟨29, _⟩ => ⟨S800000, .f32⟩
  | .hbm, ⟨30, _⟩ => ⟨S800000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S50000, .f32⟩
  | .hbm, ⟨50, _⟩ => ⟨S800000x1, .i32⟩
  | .hbm, ⟨51, _⟩ => ⟨S50000, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S128x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S800000x1_S800000 : S800000x1.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The program's run with its result named.

  The program is three passes over rows (the projections, the messages, the node update) among three stretches of
  host operations.  Every weakly fair execution terminates without a fault; the buffer contents at each boundary are
  a fold from the launch memory: a stretch applies its operations in order, a pass leaves in each of its arrays what
  its write-backs leave and every other buffer as it was.  The last boundary's contents are what the final memory
  holds in every buffer that outlives the passes, the result array among them: that is the first conjunct below;
  the arguments read back through the fold to their launch contents.
-/
import proofs.«170920_j49632642073094_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents
    and the argument arrays as launched. -/
theorem run_named : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Whole

end
-- ==== Proof.EdgeConv.lean ====
/-
  The three dense passes of an edge-weighted graph convolution, as functions of rows.

  A node layer of the convolution has three passes that touch every row once.
  * A linear map with the weight stored [out, in]:  proj(r, n) = sum_k x(r, k) * w(n, k) + b(n).
  * The message of an edge:  msg(e, d) = exp (0 - w(e) / s(e)) * h(e, d),  where w(e) is the edge's weight, s(e) the
    sum of the weights of the edges into the same node, and h(e, .) the projected row of the edge's source.
  * The node update:  comb(r, d) = y(r, d) + a(r, d) / max (deg(r), 1),  the self term plus the mean of the messages.
  Every entry of each result depends on one row of the operands only.  That is what lets a pass that walks over
  blocks of rows be compared with one that treats all rows at once: the functions below are stated for any number
  of rows A, and the row lemmas say that two operand sets that agree on a row give the same entry there.
  Nothing here uses a law of arithmetic, so nothing needs the inputs to be finite.
-/
import Idealize.ShloMosaic.Lib.ValueIdx
import Idealize.ShloMosaic.PureOps.Ideal

noncomputable section

open scoped BigOperators

namespace Cert.EdgeConv

open Idealize.ShloMosaic Idealize.ShloMosaic.ValueIdx

/-- The linear map on rows with the weight stored [out, in]: entry (r, n) is the sum over k of x(r, k) * w(n, k), plus b(n). -/
def proj (A K N : Nat) (x : (⟨2, ![A, K]⟩ : Shape).Idx → EReal) (w : (⟨2, ![N, K]⟩ : Shape).Idx → EReal)
    (b : (⟨1, ![N]⟩ : Shape).Idx → EReal) : (⟨2, ![A, N]⟩ : Shape).Idx → EReal :=
  fun j => (∑ k : Fin K, x (ix2 (j 0 : Fin A) k) * w (ix2 (j 1 : Fin N) k)) + b (ix1 (j 1 : Fin N))

/-- Entry (p, q) of the linear map depends on row p of x only. -/
theorem proj_row {A A' K N : Nat} (x : (⟨2, ![A, K]⟩ : Shape).Idx → EReal) (x' : (⟨2, ![A', K]⟩ : Shape).Idx → EReal)
    (w : (⟨2, ![N, K]⟩ : Shape).Idx → EReal) (b : (⟨1, ![N]⟩ : Shape).Idx → EReal) (p : Fin A) (r : Fin A') (q : Fin N)
    (h : ∀ k : Fin K, x (ix2 p k) = x' (ix2 r k)) :
    proj A K N x w b (ix2 p q) = proj A' K N x' w b (ix2 r q) := by
  show (∑ k : Fin K, x (ix2 p k) * w (ix2 q k)) + b (ix1 q) = (∑ k : Fin K, x' (ix2 r k) * w (ix2 q k)) + b (ix1 q)
  rw [Finset.sum_congr rfl fun k _ => by rw [h k]]

/-- The message of every edge: exp (0 - w(e) / s(e)) * h(e, d), the weight w and the normaliser s columns; the zero is
    the f32 zero word. -/
def msg (A D : Nat) (w s : (⟨2, ![A, 1]⟩ : Shape).Idx → EReal) (h : (⟨2, ![A, D]⟩ : Shape).Idx → EReal) :
    (⟨2, ![A, D]⟩ : Shape).Idx → EReal :=
  fun j => Ideal.exp (Ideal.ofBits .f32 0x00000000#32
      - Ideal.div (w (ix2 (j 0 : Fin A) (0 : Fin 1))) (s (ix2 (j 0 : Fin A) (0 : Fin 1)))) * h j

/-- Entry (p, q) of the messages depends on row p of the three operands only. -/
theorem msg_row {A A' D : Nat} (w s : (⟨2, ![A, 1]⟩ : Shape).Idx → EReal) (h : (⟨2, ![A, D]⟩ : Shape).Idx → EReal)
    (w' s' : (⟨2, ![A', 1]⟩ : Shape).Idx → EReal) (h' : (⟨2, ![A', D]⟩ : Shape).Idx → EReal) (p : Fin A) (r : Fin A') (q : Fin D)
    (hw : w (ix2 p (0 : Fin 1)) = w' (ix2 r (0 : Fin 1))) (hs : s (ix2 p (0 : Fin 1)) = s' (ix2 r (0 : Fin 1)))
    (hh : h (ix2 p q) = h' (ix2 r q)) :
    msg A D w s h (ix2 p q) = msg A' D w' s' h' (ix2 r q) := by
  show Ideal.exp (_ - Ideal.div (w (ix2 p 0)) (s (ix2 p 0))) * h (ix2 p q)
    = Ideal.exp (_ - Ideal.div (w' (ix2 r 0)) (s' (ix2 r 0))) * h' (ix2 r q)
  rw [hw, hs, hh]

/-- The node update: y(r, d) + a(r, d) / max (deg(r), 1), the degree a column; the one is the f32 word of 1. -/
def comb (A D : Nat) (y a : (⟨2, ![A, D]⟩ : Shape).Idx → EReal) (deg : (⟨2, ![A, 1]⟩ : Shape).Idx → EReal) :
    (⟨2, ![A, D]⟩ : Shape).Idx → EReal :=
  fun j => y j + Ideal.div (a j) (max (deg (ix2 (j 0 : Fin A) (0 : Fin 1))) (Ideal.ofBits .f32 0x3F800000#32))

/-- Entry (p, q) of the node update depends on row p of the three operands only. -/
theorem comb_row {A A' D : Nat} (y a : (⟨2, ![A, D]⟩ : Shape).Idx → EReal) (deg : (⟨2, ![A, 1]⟩ : Shape).Idx → EReal)
    (y' a' : (⟨2, ![A', D]⟩ : Shape).Idx → EReal) (deg' : (⟨2, ![A', 1]⟩ : Shape).Idx → EReal) (p : Fin A) (r : Fin A') (q : Fin D)
    (hy : y (ix2 p q) = y' (ix2 r q)) (ha : a (ix2 p q) = a' (ix2 r q))
    (hd : deg (ix2 p (0 : Fin 1)) = deg' (ix2 r (0 : Fin 1))) :
    comb A D y a deg (ix2 p q) = comb A' D y' a' deg' (ix2 r q) := by
  show y (ix2 p q) + Ideal.div (a (ix2 p q)) (max (deg (ix2 p 0)) _) = y' (ix2 r q) + Ideal.div (a' (ix2 r q)) (max (deg' (ix2 r 0)) _)
  rw [hy, ha, hd]

/-- A [1, N] row read as the [N] vector of its entries. -/
def rowVec {N : Nat} (b1 : (⟨2, ![1, N]⟩ : Shape).Idx → EReal) : (⟨1, ![N]⟩ : Shape).Idx → EReal :=
  fun i => b1 (ix2 (0 : Fin 1) (i 0 : Fin N))

end Cert.EdgeConv

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.Tiles.lean ====
/-
  The three kernel bodies, read at the ideal values as functions of rows.

  The projection body multiplies a tile of rows by the transposed weight (both narrowed to bf16, which changes
  nothing at the ideal values; the product accumulates into a zero splat) and adds the bias row repeated down the
  tile: entry (p, q) is the sum over k of x(p, k) * w(q, k), plus the row's entry q.  The message body divides the
  weight column by the normaliser column, subtracts the quotient from a zero splat, exponentiates, repeats the
  column along the lanes and multiplies by the gathered rows.  The update body takes the larger of the degree column
  and a splat of one, repeats it along the lanes, divides the aggregated rows by it and adds the self term.  Each
  is the row function of the same name in the specification, on the tile.
-/
import proofs.«170920_j49632642073094_2_alg».proof.Proof.Gen.KernelIdeal.Skeleton
import proofs.«170920_j49632642073094_2_alg».proof.Proof.EdgeConv
import proofs.«170920_j49632642073094_2_alg».proof.Proof.LibDense
import proofs.«170920_j49632642073094_2_alg».proof.Proof.LibLayout
import Idealize.ShloMosaic.Lib.ValueIdx
import Idealize.ShloMosaic.Lib.Pipeline.Value
import Idealize.ShloMosaic.PureOps.Ideal.Laws

noncomputable section

open scoped BigOperators

namespace Cert.KernelIdeal.Tiles

open Cert.KernelIdeal Cert.KernelIdeal.Gen Idealize.ShloMosaic Idealize.ShloMosaic.ValueIdx Cert.EdgeConv

/-- A tile of rows times the transposed weight, into a zero splat: entry (p, q) is the sum over k of x(p, k) * w(q, k)
    (the contraction of a plain product reads the transposed weight at (k, q), which is the weight at (q, k)). -/
theorem matmul_wT (x : FVec Ideal S5000x128 .bf16) (w : FVec Ideal S128x128 .bf16) (j : S5000x128.Idx) :
    matmul dot_S5000x128_S128x128_S5000x128_1_0_0_1_n_n none x
        (transpose S128x128 [1, 0] w transposes_S128x128_p1_0_S128x128) (constant S5000x128 .f32 0x00000000#32) j
      = ∑ k : Fin 128, x (ix2 (j 0 : Fin 5000) k) * w (ix2 (j 1 : Fin 128) k) := by
  refine (Ideal.matmul_constant_zero_apply _ none x _ j).trans ?_
  refine (LibDense.plain_sum 5000 128 128 x (transpose S128x128 [1, 0] w transposes_S128x128_p1_0_S128x128) j).trans ?_
  refine Finset.sum_congr rfl fun k _ => ?_
  refine congrArg (x (ix2 (j 0 : Fin 5000) k) * ·) ?_
  exact transpose_apply [1, 0] w transposes_S128x128_p1_0_S128x128 (ix2 k (j 1 : Fin 128)) (ix2 (j 1 : Fin 128) k)
    (fun b => match b with
      | ⟨0, _⟩ => rfl
      | ⟨1, _⟩ => rfl)

/-- The bias row, cast to itself and repeated down the tile, reads the row's entry of the column. -/
theorem bias_rows (b1 : FVec Ideal S1x128 .f32) (j : S5000x128.Idx) :
    broadcastTo S5000x128 (shapeCast S1x128 b1 shapeCasts_S1x128_S1x128) broadcasts_S1x128_S5000x128 j
      = b1 (ix2 (0 : Fin 1) (j 1 : Fin 128)) := by
  rw [shapeCast_self]
  exact broadcastTo_apply b1 broadcasts_S1x128_S5000x128 j (ix2 (0 : Fin 1) (j 1 : Fin 128)) (fun a => match a with
    | ⟨0, _⟩ => rfl
    | ⟨1, _⟩ => by show (j 1).val = if (128 : Nat) = 1 then 0 else (j 1).val; rw [if_neg (by decide)])

/-- The first projection's payload is the linear map of the tile's rows. -/
theorem proj_tile (x0 : Vec Ideal S5000x128 .f32) (x1 : Vec Ideal S128x128 .f32) (x2 : Vec Ideal S1x128 .f32) :
    k0_pay2 (F := Ideal) x0 x1 x2 = proj 5000 128 128 x0 x1 (rowVec x2) := by
  funext j
  unfold k0_pay2 k0_pay1
  dsimp only
  rw [addf_apply, matmul_wT, bias_rows]
  rfl

/-- The second projection's payload likewise. -/
theorem proj_tile' (x0 : Vec Ideal S5000x128 .f32) (x1 : Vec Ideal S128x128 .f32) (x2 : Vec Ideal S1x128 .f32) :
    k0_pay3 (F := Ideal) x0 x1 x2 = proj 5000 128 128 x0 x1 (rowVec x2) := by
  funext j
  unfold k0_pay3 k0_pay1
  dsimp only
  rw [addf_apply, matmul_wT, bias_rows]
  rfl

/-- The message payload is the message function of the tile's rows. -/
theorem msg_tile (x0 x1 : Vec Ideal S8000x1 .f32) (x2 : Vec Ideal S8000x128 .f32) :
    k1_pay1 (F := Ideal) x0 x1 x2 = msg 8000 128 x0 x1 x2 := by
  funext j
  obtain ⟨p, q, rfl⟩ : ∃ (p : Fin 8000) (q : Fin 128), j = ix2 p q := ⟨j 0, j 1, eq_ix2 j⟩
  unfold k1_pay1
  rw [mulf_apply, LibLayout.broadcastTo_a1_ab_apply, shapeCast_self, shapeCast_self]
  rfl

/-- The update payload is the node update of the tile's rows. -/
theorem comb_tile (d : Vec Ideal S5000x1 .f32) (y a : Vec Ideal S5000x128 .f32) :
    k2_pay1 (F := Ideal) d y a = comb 5000 128 y a d := by
  funext j
  obtain ⟨p, q, rfl⟩ : ∃ (p : Fin 5000) (q : Fin 128), j = ix2 p q := ⟨j 0, j 1, eq_ix2 j⟩
  unfold k2_pay1
  rw [addf_apply, divf_apply, LibLayout.broadcastTo_a1_ab_apply, shapeCast_self, shapeCast_self, shapeCast_self]
  rfl

end Cert.KernelIdeal.Tiles

end
-- ==== Proof.Region0.lean ====
/-
  The two linear projections over all nodes: what their result arrays hold after the last grid point.

  The pass walks over 10 blocks of 5000 nodes.  At block t it reads rows 5000 t ... 5000 t + 4999 of the features and,
  whole, the two weight matrices and the two bias rows, and writes the same rows of the two results.  An entry of a
  linear map depends on its own row of the features only, so what block t writes is block t of the linear map of
  the whole arrays; the 10 blocks tile each result, so after the last one each result IS that map.  This is stated
  for any contents V of the buffers when the pass is entered.
-/
import proofs.«170920_j49632642073094_2_alg».proof.Proof.Gen.KernelIdeal.Frame
import proofs.«170920_j49632642073094_2_alg».proof.Proof.Tiles
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx Cert.EdgeConv
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The feature window and the two output windows move with the grid point along the rows; the weights and bias rows
    stay at block 0. -/
theorem index_eq : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A tile whose rows are rows b ... b + 4999 of the features, with the whole weight and bias row, has, at (p, q), the
    linear map of the arrays at (b + p, q). -/
theorem proj_block (a0 : S50000x128.Idx → EReal) (w : S128x128.Idx → EReal) (b1 : S1x128.Idx → EReal)
    (x0 : S5000x128.Idx → EReal) (x1 : S128x128.Idx → EReal) (x2 : S1x128.Idx → EReal) (b : Nat) (hb : b + 5000 ≤ 50000)
    (h0 : ∀ (p : Fin 5000) (k : Fin 128), x0 (ix2 p k) = a0 (ix2 (⟨b + p.val, by omega⟩ : Fin 50000) k))
    (h1 : x1 = w) (h2 : x2 = b1) (p : Fin 5000) (q : Fin 128) :
    proj 5000 128 128 x0 x1 (rowVec x2) (ix2 p q)
      = proj 50000 128 128 a0 w (rowVec b1) (ix2 (⟨b + p.val, by omega⟩ : Fin 50000) q) := by
  subst h1 h2
  exact proj_row x0 a0 x1 (rowVec x2) p _ q (h0 p)

/-- WHAT POINT t WRITES BACK to output 5 is block t of the linear map of the arrays as the pass finds them. -/
theorem flushed5_eq (c : Dev nD) (t : Fin cfg0.N) :
    (dat0 V c).flushed 5 t = ((cfg0.win 5).blk t).view.read (Elt Ideal)
      (proj 50000 128 128 (V c main_arg0) (V c main_arg4) (rowVec (V c main_v0))) := by
  show (cfg0.win 5).cut (grid0.coords t) ((dat0 V c).after 5 t) = _
  rw [after0_5]
  unfold out0_5
  rw [View.canon_unit_zero zeros]
  simp only [View.ld_unit_zero (S := S5000x128) zeros, View.ld_unit_zero (S := S128x128) zeros, View.ld_unit_zero (S := S1x128) zeros]
  rw [Tiles.proj_tile]
  obtain ⟨e00, e01, e10, e11, e20, e21, e30, e31, e40, e41, e50, e51, e60, e61⟩ := index_eq t
  have ht : t.val < 10 := t.isLt
  funext j
  obtain ⟨p, q, rfl⟩ : ∃ (p : Fin 5000) (q : Fin 128), j = ix2 p q := ⟨j 0, j 1, @eq_ix2 5000 128 j⟩
  show proj 5000 128 128 (iblk0 V c 0 t) (iblk0 V c 1 t) (rowVec (iblk0 V c 2 t)) (ix2 p q)
    = proj 50000 128 128 (V c main_arg0) (V c main_arg4) (rowVec (V c main_v0)) (((cfg0.win 5).blk t).view.emb (ix2 p q))
  refine (proj_block (V c main_arg0) (V c main_arg4) (V c main_v0) (iblk0 V c 0 t) (iblk0 V c 1 t) (iblk0 V c 2 t)
    (t.val * 5000) (by omega) ?_ ?_ ?_ p q).trans ?_
  · intro p' k
    show V c main_arg0 (((cfg0.win 0).blk t).view.emb (ix2 p' k)) = _
    refine congrArg (V c main_arg0) (funext fun a => Fin.ext ?_)
    match a with
    | ⟨0, _⟩ => show win0_0.index t (0 : Fin 2) * 5000 + 1 * p'.val = t.val * 5000 + p'.val; omega
    | ⟨1, _⟩ => show win0_0.index t (1 : Fin 2) * 128 + 1 * k.val = k.val; omega
  · funext y
    show V c main_arg4 (((cfg0.win 1).blk t).view.emb y) = V c main_arg4 y
    refine congrArg (V c main_arg4) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v0 (((cfg0.win 2).blk t).view.emb y) = V c main_v0 y
    refine congrArg (V c main_v0) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · refine congrArg (proj 50000 128 128 (V c main_arg0) (V c main_arg4) (rowVec (V c main_v0))) (funext fun a => Fin.ext ?_)
    match a with
    | ⟨0, _⟩ => show t.val * 5000 + p.val = win0_5.index t (0 : Fin 2) * 5000 + 1 * p.val; omega
    | ⟨1, _⟩ => show q.val = win0_5.index t (1 : Fin 2) * 128 + 1 * q.val; omega

/-- An index of output 5 is in block t iff each coordinate is in the block's range on its axis. -/
theorem mem_blk5 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v2_0).slice (win0_5.rect t)).set ↔ _
  rw [View.set_slice_whole, Rect.mem_set_unit]
  exact Iff.rfl

/-- The blocks tile output 5: row r is in block r / 5000. -/
theorem cover5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have hlt : (i 0).val / 5000 < grid0.N := by rw [hN]; omega
  obtain ⟨-, -, -, -, -, -, -, -, -, -, e50, e51, e60, e61⟩ := index_eq ⟨(i 0).val / 5000, hlt⟩
  have e0' : win0_5.index ⟨(i 0).val / 5000, hlt⟩ (0 : Fin 2) = (i 0).val / 5000 := e50
  refine ⟨⟨(i 0).val / 5000, hlt⟩, flush0_5 _, ?_⟩
  rw [mem_blk5]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    omega

/-- OUTPUT 5 after the pass: the linear map of the arrays as the pass finds them. -/
theorem final5 (c : Dev nD) :
    (dat0 V c).arrAt 5 cfg0.N = proj 50000 128 128 (V c main_arg0) (V c main_arg4) (rowVec (V c main_v0)) :=
  (dat0 V c).arrAt_eq_of_cover 5 _ (fun t _ => flushed5_eq V c t) cover5

/-- WHAT POINT t WRITES BACK to output 6 is block t of the linear map of the arrays as the pass finds them. -/
theorem flushed6_eq (c : Dev nD) (t : Fin cfg0.N) :
    (dat0 V c).flushed 6 t = ((cfg0.win 6).blk t).view.read (Elt Ideal)
      (proj 50000 128 128 (V c main_arg0) (V c main_arg6) (rowVec (V c main_v1))) := by
  show (cfg0.win 6).cut (grid0.coords t) ((dat0 V c).after 6 t) = _
  rw [after0_6]
  unfold out0_6
  rw [View.canon_unit_zero zeros]
  simp only [View.ld_unit_zero (S := S5000x128) zeros, View.ld_unit_zero (S := S128x128) zeros, View.ld_unit_zero (S := S1x128) zeros]
  rw [Tiles.proj_tile']
  obtain ⟨e00, e01, e10, e11, e20, e21, e30, e31, e40, e41, e50, e51, e60, e61⟩ := index_eq t
  have ht : t.val < 10 := t.isLt
  funext j
  obtain ⟨p, q, rfl⟩ : ∃ (p : Fin 5000) (q : Fin 128), j = ix2 p q := ⟨j 0, j 1, @eq_ix2 5000 128 j⟩
  show proj 5000 128 128 (iblk0 V c 0 t) (iblk0 V c 3 t) (rowVec (iblk0 V c 4 t)) (ix2 p q)
    = proj 50000 128 128 (V c main_arg0) (V c main_arg6) (rowVec (V c main_v1)) (((cfg0.win 6).blk t).view.emb (ix2 p q))
  refine (proj_block (V c main_arg0) (V c main_arg6) (V c main_v1) (iblk0 V c 0 t) (iblk0 V c 3 t) (iblk0 V c 4 t)
    (t.val * 5000) (by omega) ?_ ?_ ?_ p q).trans ?_
  · intro p' k
    show V c main_arg0 (((cfg0.win 0).blk t).view.emb (ix2 p' k)) = _
    refine congrArg (V c main_arg0) (funext fun a => Fin.ext ?_)
    match a with
    | ⟨0, _⟩ => show win0_0.index t (0 : Fin 2) * 5000 + 1 * p'.val = t.val * 5000 + p'.val; omega
    | ⟨1, _⟩ => show win0_0.index t (1 : Fin 2) * 128 + 1 * k.val = k.val; omega
  · funext y
    show V c main_arg6 (((cfg0.win 3).blk t).view.emb y) = V c main_arg6 y
    refine congrArg (V c main_arg6) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v1 (((cfg0.win 4).blk t).view.emb y) = V c main_v1 y
    refine congrArg (V c main_v1) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · refine congrArg (proj 50000 128 128 (V c main_arg0) (V c main_arg6) (rowVec (V c main_v1))) (funext fun a => Fin.ext ?_)
    match a with
    | ⟨0, _⟩ => show t.val * 5000 + p.val = win0_6.index t (0 : Fin 2) * 5000 + 1 * p.val; omega
    | ⟨1, _⟩ => show q.val = win0_6.index t (1 : Fin 2) * 128 + 1 * q.val; omega

/-- An index of output 6 is in block t iff each coordinate is in the block's range on its axis. -/
theorem mem_blk6 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v2_1).slice (win0_6.rect t)).set ↔ _
  rw [View.set_slice_whole, Rect.mem_set_unit]
  exact Iff.rfl

/-- The blocks tile output 6: row r is in block r / 5000. -/
theorem cover6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 10 := N_0
  have hlt : (i 0).val / 5000 < grid0.N := by rw [hN]; omega
  obtain ⟨-, -, -, -, -, -, -, -, -, -, e50, e51, e60, e61⟩ := index_eq ⟨(i 0).val / 5000, hlt⟩
  have e0' : win0_6.index ⟨(i 0).val / 5000, hlt⟩ (0 : Fin 2) = (i 0).val / 5000 := e60
  refine ⟨⟨(i 0).val / 5000, hlt⟩, flush0_6 _, ?_⟩
  rw [mem_blk6]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    omega

/-- OUTPUT 6 after the pass: the linear map of the arrays as the pass finds them. -/
theorem final6 (c : Dev nD) :
    (dat0 V c).arrAt 6 cfg0.N = proj 50000 128 128 (V c main_arg0) (V c main_arg6) (rowVec (V c main_v1)) :=
  (dat0 V c).arrAt_eq_of_cover 6 _ (fun t _ => flushed6_eq V c t) cover6

end Cert.KernelIdeal.Region0

end
-- ==== Proof.Region1.lean ====
/-
  The message pass over all edges: what its result array holds after the last grid point.

  The pass walks over 100 blocks of 8000 edges.  At block t it reads rows 8000 t ... 8000 t + 7999 of the weight
  column, of the normaliser column and of the gathered rows, and writes the same rows of the result.  An entry of the
  message depends on its own row only, so what block t writes is block t of the message function of the whole
  arrays; the 100 blocks tile the result, so after the last one the result IS that function.  This is stated for any
  contents V of the buffers when the pass is entered.
-/
import proofs.«170920_j49632642073094_2_alg».proof.Proof.Gen.KernelIdeal.Frame
import proofs.«170920_j49632642073094_2_alg».proof.Proof.Tiles
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx Cert.EdgeConv
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- Every window of the pass moves with the grid point along the rows and stays at lane block 0. -/
theorem index_eq : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- A tile whose rows are rows b ... b + 7999 of the arrays has, at (p, q), the message of the arrays at (b + p, q). -/
theorem msg_block (a0 a1 : S800000x1.Idx → EReal) (a2 : S800000x128.Idx → EReal)
    (x0 x1 : S8000x1.Idx → EReal) (x2 : S8000x128.Idx → EReal) (b : Nat) (hb : b + 8000 ≤ 800000)
    (h0 : ∀ p : Fin 8000, x0 (ix2 p (0 : Fin 1)) = a0 (ix2 (⟨b + p.val, by omega⟩ : Fin 800000) (0 : Fin 1)))
    (h1 : ∀ p : Fin 8000, x1 (ix2 p (0 : Fin 1)) = a1 (ix2 (⟨b + p.val, by omega⟩ : Fin 800000) (0 : Fin 1)))
    (h2 : ∀ (p : Fin 8000) (q : Fin 128), x2 (ix2 p q) = a2 (ix2 (⟨b + p.val, by omega⟩ : Fin 800000) q))
    (p : Fin 8000) (q : Fin 128) :
    msg 8000 128 x0 x1 x2 (ix2 p q) = msg 800000 128 a0 a1 a2 (ix2 (⟨b + p.val, by omega⟩ : Fin 800000) q) :=
  msg_row x0 x1 x2 a0 a1 a2 p _ q (h0 p) (h1 p) (h2 p q)

/-- WHAT POINT t WRITES BACK is block t of the message function of the arrays as the pass finds them. -/
theorem flushed_eq (c : Dev nD) (t : Fin cfg1.N) :
    (dat1 V c).flushed 3 t = ((cfg1.win 3).blk t).view.read (Elt Ideal)
      (msg 800000 128 (V c main_arg1) (V c main_v14) (V c main_v21)) := by
  show (cfg1.win 3).cut (grid1.coords t) ((dat1 V c).after 3 t) = _
  rw [after1_3]
  unfold out1_3
  rw [View.canon_unit_zero zeros]
  simp only [View.ld_unit_zero (S := S8000x1) zeros, View.ld_unit_zero (S := S8000x128) zeros]
  rw [Tiles.msg_tile]
  obtain ⟨e00, e01, e10, e11, e20, e21, e30, e31⟩ := index_eq t
  have ht : t.val < 100 := t.isLt
  funext j
  obtain ⟨p, q, rfl⟩ : ∃ (p : Fin 8000) (q : Fin 128), j = ix2 p q := ⟨j 0, j 1, @eq_ix2 8000 128 j⟩
  show msg 8000 128 (iblk1 V c 0 t) (iblk1 V c 1 t) (iblk1 V c 2 t) (ix2 p q)
    = msg 800000 128 (V c main_arg1) (V c main_v14) (V c main_v21) (((cfg1.win 3).blk t).view.emb (ix2 p q))
  refine (msg_block (V c main_arg1) (V c main_v14) (V c main_v21) (iblk1 V c 0 t) (iblk1 V c 1 t) (iblk1 V c 2 t)
    (t.val * 8000) (by omega) ?_ ?_ ?_ p q).trans ?_
  · intro p'
    show V c main_arg1 (((cfg1.win 0).blk t).view.emb (ix2 p' (0 : Fin 1))) = _
    refine congrArg (V c main_arg1) (funext fun a => Fin.ext ?_)
    match a with
    | ⟨0, _⟩ => show win1_0.index t (0 : Fin 2) * 8000 + 1 * p'.val = t.val * 8000 + p'.val; omega
    | ⟨1, _⟩ => show win1_0.index t (1 : Fin 2) * 1 + 1 * 0 = 0; omega
  · intro p'
    show V c main_v14 (((cfg1.win 1).blk t).view.emb (ix2 p' (0 : Fin 1))) = _
    refine congrArg (V c main_v14) (funext fun a => Fin.ext ?_)
    match a with
    | ⟨0, _⟩ => show win1_1.index t (0 : Fin 2) * 8000 + 1 * p'.val = t.val * 8000 + p'.val; omega
    | ⟨1, _⟩ => show win1_1.index t (1 : Fin 2) * 1 + 1 * 0 = 0; omega
  · intro p' q'
    show V c main_v21 (((cfg1.win 2).blk t).view.emb (ix2 p' q')) = _
    refine congrArg (V c main_v21) (funext fun a => Fin.ext ?_)
    match a with
    | ⟨0, _⟩ => show win1_2.index t (0 : Fin 2) * 8000 + 1 * p'.val = t.val * 8000 + p'.val; omega
    | ⟨1, _⟩ => show win1_2.index t (1 : Fin 2) * 128 + 1 * q'.val = q'.val; omega
  · refine congrArg (msg 800000 128 (V c main_arg1) (V c main_v14) (V c main_v21)) (funext fun a => Fin.ext ?_)
    match a with
    | ⟨0, _⟩ => show t.val * 8000 + p.val = win1_3.index t (0 : Fin 2) * 8000 + 1 * p.val; omega
    | ⟨1, _⟩ => show q.val = win1_3.index t (1 : Fin 2) * 128 + 1 * q.val; omega

/-- An index of the result is in block t iff each coordinate is in the block's range on its axis. -/
theorem mem_blk (t : Fin cfg1.N) (i : S800000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v22).slice (win1_3.rect t)).set ↔ _
  rw [View.set_slice_whole, Rect.mem_set_unit]
  exact Iff.rfl

/-- The blocks tile the result: row r is in block r / 8000. -/
theorem cover (i : S800000x128.Idx) :
    ∃ t : Fin cfg1.N, (cfg1.win 3).flush t = true ∧ i ∈ ((cfg1.win 3).blk t).view.set := by
  have hi0 : (i 0).val < 800000 := (i 0).isLt
  have hi1 : (i 1).val < 128 := (i 1).isLt
  have hN : grid1.N = 100 := N_1
  have hlt : (i 0).val / 8000 < grid1.N := by rw [hN]; omega
  obtain ⟨-, -, -, -, -, -, e30, e31⟩ := index_eq ⟨(i 0).val / 8000, hlt⟩
  have e30' : win1_3.index ⟨(i 0).val / 8000, hlt⟩ (0 : Fin 2) = (i 0).val / 8000 := e30
  refine ⟨⟨(i 0).val / 8000, hlt⟩, flush1_3 _, ?_⟩
  rw [mem_blk]
  intro a
  match a with
  | ⟨0, _⟩ =>
    show win1_3.index ⟨(i 0).val / 8000, hlt⟩ (0 : Fin 2) * 8000 ≤ (i 0).val
      ∧ (i 0).val < win1_3.index ⟨(i 0).val / 8000, hlt⟩ (0 : Fin 2) * 8000 + 8000
    omega
  | ⟨1, _⟩ =>
    show win1_3.index ⟨(i 0).val / 8000, hlt⟩ (1 : Fin 2) * 128 ≤ (i 1).val
      ∧ (i 1).val < win1_3.index ⟨(i 0).val / 8000, hlt⟩ (1 : Fin 2) * 128 + 128
    omega

/-- THE RESULT after the pass: the message function of the arrays as the pass finds them. -/
theorem final (c : Dev nD) :
    (dat1 V c).arrAt 3 cfg1.N = msg 800000 128 (V c main_arg1) (V c main_v14) (V c main_v21) :=
  (dat1 V c).arrAt_eq_of_cover 3 _ (fun t _ => flushed_eq V c t) cover

end Cert.KernelIdeal.Region1

end
-- ==== Proof.Region2.lean ====
/-
  The node update over all nodes: what its result array holds after the last grid point.

  The pass walks over 10 blocks of 5000 nodes.  At block t it reads rows 5000 t ... 5000 t + 4999 of the self term,
  of the aggregated messages and of the degree column, and writes the same rows of the result.  An entry of the update
  depends on its own row only, so what block t writes is block t of the update function of the whole arrays; the 10
  blocks tile the result, so after the last one the result IS that function.  This is stated for any contents V of the
  buffers when the pass is entered.
-/
import proofs.«170920_j49632642073094_2_alg».proof.Proof.Gen.KernelIdeal.Frame
import proofs.«170920_j49632642073094_2_alg».proof.Proof.Tiles
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx Cert.EdgeConv
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- Every window of the pass moves with the grid point along the rows and stays at lane block 0. -/
theorem index_eq : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- A tile whose rows are rows b ... b + 4999 of the arrays has, at (p, q), the update of the arrays at (b + p, q). -/
theorem comb_block (y a : S50000x128.Idx → EReal) (d : S50000x1.Idx → EReal)
    (x0 x1 : S5000x128.Idx → EReal) (x2 : S5000x1.Idx → EReal) (b : Nat) (hb : b + 5000 ≤ 50000)
    (h0 : ∀ (p : Fin 5000) (q : Fin 128), x0 (ix2 p q) = y (ix2 (⟨b + p.val, by omega⟩ : Fin 50000) q))
    (h1 : ∀ (p : Fin 5000) (q : Fin 128), x1 (ix2 p q) = a (ix2 (⟨b + p.val, by omega⟩ : Fin 50000) q))
    (h2 : ∀ p : Fin 5000, x2 (ix2 p (0 : Fin 1)) = d (ix2 (⟨b + p.val, by omega⟩ : Fin 50000) (0 : Fin 1)))
    (p : Fin 5000) (q : Fin 128) :
    comb 5000 128 x0 x1 x2 (ix2 p q) = comb 50000 128 y a d (ix2 (⟨b + p.val, by omega⟩ : Fin 50000) q) :=
  comb_row x0 x1 x2 y a d p _ q (h0 p q) (h1 p q) (h2 p)

/-- WHAT POINT t WRITES BACK is block t of the update function of the arrays as the pass finds them. -/
theorem flushed_eq (c : Dev nD) (t : Fin cfg2.N) :
    (dat2 V c).flushed 3 t = ((cfg2.win 3).blk t).view.read (Elt Ideal)
      (comb 50000 128 (V c main_v2_1) (V c main_v25) (V c main_v30)) := by
  show (cfg2.win 3).cut (grid2.coords t) ((dat2 V c).after 3 t) = _
  rw [after2_3]
  unfold out2_3
  rw [View.canon_unit_zero zeros]
  simp only [View.ld_unit_zero (S := S5000x1) zeros, View.ld_unit_zero (S := S5000x128) zeros]
  rw [Tiles.comb_tile]
  obtain ⟨e00, e01, e10, e11, e20, e21, e30, e31⟩ := index_eq t
  have ht : t.val < 10 := t.isLt
  funext j
  obtain ⟨p, q, rfl⟩ : ∃ (p : Fin 5000) (q : Fin 128), j = ix2 p q := ⟨j 0, j 1, @eq_ix2 5000 128 j⟩
  show comb 5000 128 (iblk2 V c 0 t) (iblk2 V c 1 t) (iblk2 V c 2 t) (ix2 p q)
    = comb 50000 128 (V c main_v2_1) (V c main_v25) (V c main_v30) (((cfg2.win 3).blk t).view.emb (ix2 p q))
  refine (comb_block (V c main_v2_1) (V c main_v25) (V c main_v30) (iblk2 V c 0 t) (iblk2 V c 1 t) (iblk2 V c 2 t)
    (t.val * 5000) (by omega) ?_ ?_ ?_ p q).trans ?_
  · intro p' q'
    show V c main_v2_1 (((cfg2.win 0).blk t).view.emb (ix2 p' q')) = _
    refine congrArg (V c main_v2_1) (funext fun a => Fin.ext ?_)
    match a with
    | ⟨0, _⟩ => show win2_0.index t (0 : Fin 2) * 5000 + 1 * p'.val = t.val * 5000 + p'.val; omega
    | ⟨1, _⟩ => show win2_0.index t (1 : Fin 2) * 128 + 1 * q'.val = q'.val; omega
  · intro p' q'
    show V c main_v25 (((cfg2.win 1).blk t).view.emb (ix2 p' q')) = _
    refine congrArg (V c main_v25) (funext fun a => Fin.ext ?_)
    match a with
    | ⟨0, _⟩ => show win2_1.index t (0 : Fin 2) * 5000 + 1 * p'.val = t.val * 5000 + p'.val; omega
    | ⟨1, _⟩ => show win2_1.index t (1 : Fin 2) * 128 + 1 * q'.val = q'.val; omega
  · intro p'
    show V c main_v30 (((cfg2.win 2).blk t).view.emb (ix2 p' (0 : Fin 1))) = _
    refine congrArg (V c main_v30) (funext fun a => Fin.ext ?_)
    match a with
    | ⟨0, _⟩ => show win2_2.index t (0 : Fin 2) * 5000 + 1 * p'.val = t.val * 5000 + p'.val; omega
    | ⟨1, _⟩ => show win2_2.index t (1 : Fin 2) * 1 + 1 * 0 = 0; omega
  · refine congrArg (comb 50000 128 (V c main_v2_1) (V c main_v25) (V c main_v30)) (funext fun a => Fin.ext ?_)
    match a with
    | ⟨0, _⟩ => show t.val * 5000 + p.val = win2_3.index t (0 : Fin 2) * 5000 + 1 * p.val; omega
    | ⟨1, _⟩ => show q.val = win2_3.index t (1 : Fin 2) * 128 + 1 * q.val; omega

/-- An index of the result is in block t iff each coordinate is in the block's range on its axis. -/
theorem mem_blk (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v31).slice (win2_3.rect t)).set ↔ _
  rw [View.set_slice_whole, Rect.mem_set_unit]
  exact Iff.rfl

/-- The blocks tile the result: row r is in block r / 5000. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  have hlt : (i 0).val / 5000 < grid2.N := by rw [hN]; omega
  obtain ⟨-, -, -, -, -, -, e30, e31⟩ := index_eq ⟨(i 0).val / 5000, hlt⟩
  have e30' : win2_3.index ⟨(i 0).val / 5000, hlt⟩ (0 : Fin 2) = (i 0).val / 5000 := e30
  refine ⟨⟨(i 0).val / 5000, hlt⟩, flush2_3 _, ?_⟩
  rw [mem_blk]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    omega
  | ⟨1, _⟩ =>
    show win2_3.index ⟨(i 0).val / 5000, hlt⟩ (1 : Fin 2) * 128 ≤ (i 1).val
      ∧ (i 1).val < win2_3.index ⟨(i 0).val / 5000, hlt⟩ (1 : Fin 2) * 128 + 128
    omega

/-- THE RESULT after the pass: the update function of the arrays as the pass finds them. -/
theorem final (c : Dev nD) :
    (dat2 V c).arrAt 3 cfg2.N = comb 50000 128 (V c main_v2_1) (V c main_v25) (V c main_v30) :=
  (dat2 V c).arrAt_eq_of_cover 3 _ (fun t _ => flushed_eq V c t) cover

end Cert.KernelIdeal.Region2

end
-- ==== Proof.Stretch.lean ====
/-
  The three stretches of host operations between the passes, read one result at a time.

  A stretch applies its operations in order to the buffer contents it starts from.  Each lemma below says what one
  buffer holds afterwards as a function of the contents W before: a buffer no operation writes is unchanged; the bias
  rows are the bias vectors regrouped as one row; the normaliser column is the per-node sum of the edge weights (a
  scatter-add into zeros) gathered at each edge's destination (negative ids wrapped by the node count) and laid out as a
  column; the gathered rows are the first projection's rows at each edge's source; the aggregate is the scatter-add of
  the messages at the destinations, and the degree column the scatter-add of ones.
-/
import proofs.«170920_j49632642073094_2_alg».proof.Proof.Gen.KernelIdeal.Launch
import Idealize.ShloMosaic.Lib.StableHlo.Run

noncomputable section

namespace Cert.KernelIdeal.Stretch

open Cert.KernelIdeal Cert.KernelIdeal.Gen Idealize.ShloMosaic Idealize.ShloMosaic.TcCoe Idealize.SL.Sem
open Idealize.ShloMosaic.StableHlo

variable {F : FTy → Type} [FloatOps F]

/-! ## Before the projections -/

theorem hostOps0_v0 (W : Valuation τ sig (Elt F)) :
    StableHlo.after hostOps0 W (Proc.devRef .tc main_v0)
      = shapeCast S1x128 (W (Proc.devRef .tc main_arg5)) shapeCasts_S128_S1x128 := by
  dsimp only [hostOps0]; after_results; rfl

theorem hostOps0_v1 (W : Valuation τ sig (Elt F)) :
    StableHlo.after hostOps0 W (Proc.devRef .tc main_v1)
      = shapeCast S1x128 (W (Proc.devRef .tc main_arg7)) shapeCasts_S128_S1x128 := by
  dsimp only [hostOps0]; after_results; rfl

theorem hostOps0_arg0 (W : Valuation τ sig (Elt F)) :
    StableHlo.after hostOps0 W (Proc.devRef .tc main_arg0) = W (Proc.devRef .tc main_arg0) := by
  dsimp only [hostOps0]; after_results_simp

theorem hostOps0_arg1 (W : Valuation τ sig (Elt F)) :
    StableHlo.after hostOps0 W (Proc.devRef .tc main_arg1) = W (Proc.devRef .tc main_arg1) := by
  dsimp only [hostOps0]; after_results_simp

theorem hostOps0_arg2 (W : Valuation τ sig (Elt F)) :
    StableHlo.after hostOps0 W (Proc.devRef .tc main_arg2) = W (Proc.devRef .tc main_arg2) := by
  dsimp only [hostOps0]; after_results_simp

theorem hostOps0_arg3 (W : Valuation τ sig (Elt F)) :
    StableHlo.after hostOps0 W (Proc.devRef .tc main_arg3) = W (Proc.devRef .tc main_arg3) := by
  dsimp only [hostOps0]; after_results_simp

theorem hostOps0_arg4 (W : Valuation τ sig (Elt F)) :
    StableHlo.after hostOps0 W (Proc.devRef .tc main_arg4) = W (Proc.devRef .tc main_arg4) := by
  dsimp only [hostOps0]; after_results_simp

theorem hostOps0_arg6 (W : Valuation τ sig (Elt F)) :
    StableHlo.after hostOps0 W (Proc.devRef .tc main_arg6) = W (Proc.devRef .tc main_arg6) := by
  dsimp only [hostOps0]; after_results_simp

/-! ## Between the projections and the messages -/

/-- An edge id wrapped: a negative id has the node count added. -/
def wrap (ids : (⟨S800000, .i32⟩ : BufTy).Contents (Elt F)) : (⟨S800000, .i32⟩ : BufTy).Contents (Elt F) :=
  select (cmpi .slt ids (broadcastInDim S800000 ![] bcast_S_S800000 (constantI S_ 32 0#32)))
    (addi ids (broadcastInDim S800000 ![] bcast_S_S800000 (constantI S_ 32 50000#32))) ids

/-- The per-node sum of the edge weights, gathered at each edge's destination, as a column. -/
def wsumDst (w : (⟨S800000x1, .f32⟩ : BufTy).Contents (Elt F)) (dst : (⟨S800000, .i32⟩ : BufTy).Contents (Elt F)) :
    (⟨S800000x1, .f32⟩ : BufTy).Contents (Elt F) :=
  broadcastInDim S800000x1 ![0] bcast_S800000_S800000x1_0
    (Host.gather gather_S50000_S800000x1_S800000_n_0_n_n_0_1_1
      (Host.scatterAdd scatter_S50000_S800000x1_S800000_n_0_0_1
        (broadcastInDim S50000 ![] bcast_S_S50000 (constant S_ .f32 0x00000000#32))
        (broadcastInDim S800000x1 ![0] bcast_S800000_S800000x1_0 dst)
        (shapeCast S800000 w shapeCasts_S800000x1_S800000))
      (broadcastInDim S800000x1 ![0] bcast_S800000_S800000x1_0 (wrap dst)))

/-- Rows of a node array gathered at each edge's source. -/
def rowsAt (h : (⟨S50000x128, .f32⟩ : BufTy).Contents (Elt F)) (src : (⟨S800000, .i32⟩ : BufTy).Contents (Elt F)) :
    (⟨S800000x128, .f32⟩ : BufTy).Contents (Elt F) :=
  Host.gather gather_S50000x128_S800000x1_S800000x128_1_0_n_n_0_1_1128 h
    (broadcastInDim S800000x1 ![0] bcast_S800000_S800000x1_0 (wrap src))

theorem hostOps1_v14 (W : Valuation τ sig (Elt F)) :
    StableHlo.after hostOps1 W (Proc.devRef .tc main_v14)
      = wsumDst (W (Proc.devRef .tc main_arg1)) (W (Proc.devRef .tc main_arg3)) := by
  dsimp only [hostOps1]; after_results_simp; rfl

theorem hostOps1_v21 (W : Valuation τ sig (Elt F)) :
    StableHlo.after hostOps1 W (Proc.devRef .tc main_v21)
      = rowsAt (W (Proc.devRef .tc main_v2_0)) (W (Proc.devRef .tc main_arg2)) := by
  dsimp only [hostOps1]; after_results_simp; rfl

theorem hostOps1_arg1 (W : Valuation τ sig (Elt F)) :
    StableHlo.after hostOps1 W (Proc.devRef .tc main_arg1) = W (Proc.devRef .tc main_arg1) := by
  dsimp only [hostOps1]; after_results_simp

theorem hostOps1_arg3 (W : Valuation τ sig (Elt F)) :
    StableHlo.after hostOps1 W (Proc.devRef .tc main_arg3) = W (Proc.devRef .tc main_arg3) := by
  dsimp only [hostOps1]; after_results_simp

theorem hostOps1_v2_1 (W : Valuation τ sig (Elt F)) :
    StableHlo.after hostOps1 W (Proc.devRef .tc main_v2_1) = W (Proc.devRef .tc main_v2_1) := by
  dsimp only [hostOps1]; after_results_simp

/-! ## Between the messages and the node update -/

/-- Edge rows summed into their destination nodes. -/
def aggAt (res : (⟨S800000x128, .f32⟩ : BufTy).Contents (Elt F)) (dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) res

/-- The number of edges into each node, as a column. -/
def degCol (dst : (⟨S800000, .i32⟩ : BufTy).Contents (Elt F)) : (⟨S50000x1, .f32⟩ : BufTy).Contents (Elt F) :=
  broadcastInDim S50000x1 ![0] bcast_S50000_S50000x1_0
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))

theorem hostOps2_v25 (W : Valuation τ sig (Elt F)) :
    StableHlo.after hostOps2 W (Proc.devRef .tc main_v25)
      = aggAt (W (Proc.devRef .tc main_v22)) (W (Proc.devRef .tc main_arg3)) := by
  dsimp only [hostOps2]; after_results_simp; rfl

theorem hostOps2_v30 (W : Valuation τ sig (Elt F)) :
    StableHlo.after hostOps2 W (Proc.devRef .tc main_v30) = degCol (W (Proc.devRef .tc main_arg3)) := by
  dsimp only [hostOps2]; after_results_simp; rfl

theorem hostOps2_v2_1 (W : Valuation τ sig (Elt F)) :
    StableHlo.after hostOps2 W (Proc.devRef .tc main_v2_1) = W (Proc.devRef .tc main_v2_1) := by
  dsimp only [hostOps2]; after_results_simp

end Cert.KernelIdeal.Stretch

end
-- ==== Proof.KernelValue.lean ====
/-
  The program's result as one function of its argument arrays.

  Walking the boundaries forward from the launch memory: the first stretch regroups the two bias vectors as rows;
  the projection pass leaves the two linear maps of the features; the second stretch gathers the normaliser column
  and the source rows; the message pass leaves the messages; the third stretch sums them into their destination
  nodes and counts the edges into each node; the update pass leaves the self term plus the mean message.  A buffer
  that a stretch does not write and that is no array of a pass keeps its contents across it, which is how the edge
  ids and weights reach the stretches that use them.
-/
import proofs.«170920_j49632642073094_2_alg».proof.Proof.Gen.KernelIdeal.Frame
import proofs.«170920_j49632642073094_2_alg».proof.Proof.Region0
import proofs.«170920_j49632642073094_2_alg».proof.Proof.Region1
import proofs.«170920_j49632642073094_2_alg».proof.Proof.Region2
import proofs.«170920_j49632642073094_2_alg».proof.Proof.Stretch

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.EdgeConv Cert.KernelIdeal.Stretch

/-- A bias vector regrouped as one row. -/
def biasRow (b : (⟨S128, .f32⟩ : BufTy).Contents (Elt Ideal)) : (⟨S1x128, .f32⟩ : BufTy).Contents (Elt Ideal) := shapeCast S1x128 b shapeCasts_S128_S1x128

/-- The result of the whole program as a function of the eight argument arrays. -/
def out (a0 : (⟨S50000x128, .f32⟩ : BufTy).Contents (Elt Ideal)) (a1 : (⟨S800000x1, .f32⟩ : BufTy).Contents (Elt Ideal)) (a2 a3 : (⟨S800000, .i32⟩ : BufTy).Contents (Elt Ideal))
    (a4 : (⟨S128x128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) :
    (⟨S50000x128, .f32⟩ : BufTy).Contents (Elt Ideal) :=
  comb 50000 128 (proj 50000 128 128 a0 a6 (rowVec (biasRow a7)))
    (aggAt (F := Ideal) (msg 800000 128 a1 (wsumDst (F := Ideal) a1 a3)
      (rowsAt (F := Ideal) (proj 50000 128 128 a0 a4 (rowVec (biasRow a5))) a2)) a3)
    (degCol (F := Ideal) a3)

variable (m : (ℓ : Loc nD τ sig) → Buf (Elt Ideal) ℓ) (ρ : Dev nD → PrngReg) (c : Dev nD)

/-! ## After the first stretch -/

theorem b1_v0 : W1 m ρ c (Proc.devRef .tc main_v0) = biasRow (m ((c.tc : Thread nD τ).loc main_arg5)) := hostOps0_v0 (W0 m ρ c)
theorem b1_v1 : W1 m ρ c (Proc.devRef .tc main_v1) = biasRow (m ((c.tc : Thread nD τ).loc main_arg7)) := hostOps0_v1 (W0 m ρ c)
theorem b1_arg0 : W1 m ρ c (Proc.devRef .tc main_arg0) = (m ((c.tc : Thread nD τ).loc main_arg0)) := hostOps0_arg0 (W0 m ρ c)
theorem b1_arg1 : W1 m ρ c (Proc.devRef .tc main_arg1) = (m ((c.tc : Thread nD τ).loc main_arg1)) := hostOps0_arg1 (W0 m ρ c)
theorem b1_arg2 : W1 m ρ c (Proc.devRef .tc main_arg2) = (m ((c.tc : Thread nD τ).loc main_arg2)) := hostOps0_arg2 (W0 m ρ c)
theorem b1_arg3 : W1 m ρ c (Proc.devRef .tc main_arg3) = (m ((c.tc : Thread nD τ).loc main_arg3)) := hostOps0_arg3 (W0 m ρ c)
theorem b1_arg4 : W1 m ρ c (Proc.devRef .tc main_arg4) = (m ((c.tc : Thread nD τ).loc main_arg4)) := hostOps0_arg4 (W0 m ρ c)
theorem b1_arg6 : W1 m ρ c (Proc.devRef .tc main_arg6) = (m ((c.tc : Thread nD τ).loc main_arg6)) := hostOps0_arg6 (W0 m ρ c)

/-! ## After the projection pass -/

theorem b2_v2_0 : W2 m ρ c (Proc.devRef .tc main_v2_0)
    = proj 50000 128 128 (m ((c.tc : Thread nD τ).loc main_arg0)) (m ((c.tc : Thread nD τ).loc main_arg4)) (rowVec (biasRow (m ((c.tc : Thread nD τ).loc main_arg5)))) :=
  (W2_arr m ρ c 5).trans ((Region0.final5 (V1 m ρ) c).trans (by
    show proj 50000 128 128 (W1 m ρ c (Proc.devRef .tc main_arg0)) (W1 m ρ c (Proc.devRef .tc main_arg4))
      (rowVec (W1 m ρ c (Proc.devRef .tc main_v0))) = _
    rw [b1_arg0, b1_arg4, b1_v0]))

theorem b2_v2_1 : W2 m ρ c (Proc.devRef .tc main_v2_1)
    = proj 50000 128 128 (m ((c.tc : Thread nD τ).loc main_arg0)) (m ((c.tc : Thread nD τ).loc main_arg6)) (rowVec (biasRow (m ((c.tc : Thread nD τ).loc main_arg7)))) :=
  (W2_arr m ρ c 6).trans ((Region0.final6 (V1 m ρ) c).trans (by
    show proj 50000 128 128 (W1 m ρ c (Proc.devRef .tc main_arg0)) (W1 m ρ c (Proc.devRef .tc main_arg6))
      (rowVec (W1 m ρ c (Proc.devRef .tc main_v1))) = _
    rw [b1_arg0, b1_arg6, b1_v1]))

theorem b2_arg1 : W2 m ρ c (Proc.devRef .tc main_arg1) = (m ((c.tc : Thread nD τ).loc main_arg1)) :=
  (W2_of_ne m ρ c main_arg1 (by decide)).trans (b1_arg1 m ρ c)
theorem b2_arg2 : W2 m ρ c (Proc.devRef .tc main_arg2) = (m ((c.tc : Thread nD τ).loc main_arg2)) :=
  (W2_of_ne m ρ c main_arg2 (by decide)).trans (b1_arg2 m ρ c)
theorem b2_arg3 : W2 m ρ c (Proc.devRef .tc main_arg3) = (m ((c.tc : Thread nD τ).loc main_arg3)) :=
  (W2_of_ne m ρ c main_arg3 (by decide)).trans (b1_arg3 m ρ c)

/-! ## After the second stretch -/

theorem b3_v14 : W3 m ρ c (Proc.devRef .tc main_v14) = wsumDst (F := Ideal) (m ((c.tc : Thread nD τ).loc main_arg1)) (m ((c.tc : Thread nD τ).loc main_arg3)) :=
  (hostOps1_v14 (W2 m ρ c)).trans (by rw [b2_arg1, b2_arg3])

theorem b3_v21 : W3 m ρ c (Proc.devRef .tc main_v21)
    = rowsAt (F := Ideal) (proj 50000 128 128 (m ((c.tc : Thread nD τ).loc main_arg0)) (m ((c.tc : Thread nD τ).loc main_arg4)) (rowVec (biasRow (m ((c.tc : Thread nD τ).loc main_arg5))))) (m ((c.tc : Thread nD τ).loc main_arg2)) :=
  (hostOps1_v21 (W2 m ρ c)).trans (by rw [b2_v2_0, b2_arg2])

theorem b3_arg1 : W3 m ρ c (Proc.devRef .tc main_arg1) = (m ((c.tc : Thread nD τ).loc main_arg1)) := (hostOps1_arg1 (W2 m ρ c)).trans (b2_arg1 m ρ c)
theorem b3_arg3 : W3 m ρ c (Proc.devRef .tc main_arg3) = (m ((c.tc : Thread nD τ).loc main_arg3)) := (hostOps1_arg3 (W2 m ρ c)).trans (b2_arg3 m ρ c)
theorem b3_v2_1 : W3 m ρ c (Proc.devRef .tc main_v2_1)
    = proj 50000 128 128 (m ((c.tc : Thread nD τ).loc main_arg0)) (m ((c.tc : Thread nD τ).loc main_arg6)) (rowVec (biasRow (m ((c.tc : Thread nD τ).loc main_arg7)))) := (hostOps1_v2_1 (W2 m ρ c)).trans (b2_v2_1 m ρ c)

/-! ## After the message pass -/

theorem b4_v22 : W4 m ρ c (Proc.devRef .tc main_v22)
    = msg 800000 128 (m ((c.tc : Thread nD τ).loc main_arg1)) (wsumDst (F := Ideal) (m ((c.tc : Thread nD τ).loc main_arg1)) (m ((c.tc : Thread nD τ).loc main_arg3)))
        (rowsAt (F := Ideal) (proj 50000 128 128 (m ((c.tc : Thread nD τ).loc main_arg0)) (m ((c.tc : Thread nD τ).loc main_arg4)) (rowVec (biasRow (m ((c.tc : Thread nD τ).loc main_arg5))))) (m ((c.tc : Thread nD τ).loc main_arg2))) :=
  (W4_arr m ρ c 3).trans ((Region1.final (V3 m ρ) c).trans (by
    show msg 800000 128 (W3 m ρ c (Proc.devRef .tc main_arg1)) (W3 m ρ c (Proc.devRef .tc main_v14))
      (W3 m ρ c (Proc.devRef .tc main_v21)) = _
    rw [b3_arg1, b3_v14, b3_v21]))

theorem b4_arg3 : W4 m ρ c (Proc.devRef .tc main_arg3) = (m ((c.tc : Thread nD τ).loc main_arg3)) :=
  (W4_of_ne m ρ c main_arg3 (by decide)).trans (b3_arg3 m ρ c)
theorem b4_v2_1 : W4 m ρ c (Proc.devRef .tc main_v2_1)
    = proj 50000 128 128 (m ((c.tc : Thread nD τ).loc main_arg0)) (m ((c.tc : Thread nD τ).loc main_arg6)) (rowVec (biasRow (m ((c.tc : Thread nD τ).loc main_arg7)))) :=
  (W4_of_ne m ρ c main_v2_1 (by decide)).trans (b3_v2_1 m ρ c)

/-! ## After the third stretch -/

theorem b5_v25 : W5 m ρ c (Proc.devRef .tc main_v25)
    = aggAt (F := Ideal) (msg 800000 128 (m ((c.tc : Thread nD τ).loc main_arg1)) (wsumDst (F := Ideal) (m ((c.tc : Thread nD τ).loc main_arg1)) (m ((c.tc : Thread nD τ).loc main_arg3)))
        (rowsAt (F := Ideal) (proj 50000 128 128 (m ((c.tc : Thread nD τ).loc main_arg0)) (m ((c.tc : Thread nD τ).loc main_arg4)) (rowVec (biasRow (m ((c.tc : Thread nD τ).loc main_arg5))))) (m ((c.tc : Thread nD τ).loc main_arg2)))) (m ((c.tc : Thread nD τ).loc main_arg3)) :=
  (hostOps2_v25 (W4 m ρ c)).trans (by rw [b4_v22, b4_arg3])

theorem b5_v30 : W5 m ρ c (Proc.devRef .tc main_v30) = degCol (F := Ideal) (m ((c.tc : Thread nD τ).loc main_arg3)) :=
  (hostOps2_v30 (W4 m ρ c)).trans (by rw [b4_arg3])

theorem b5_v2_1 : W5 m ρ c (Proc.devRef .tc main_v2_1)
    = proj 50000 128 128 (m ((c.tc : Thread nD τ).loc main_arg0)) (m ((c.tc : Thread nD τ).loc main_arg6)) (rowVec (biasRow (m ((c.tc : Thread nD τ).loc main_arg7)))) := (hostOps2_v2_1 (W4 m ρ c)).trans (b4_v2_1 m ρ c)

/-! ## After the update pass -/

/-- THE RESULT ARRAY at the last boundary is `out` of the argument arrays as launched. -/
theorem result_eq : W6 m ρ c (Proc.devRef .tc main_v31)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W6_arr m ρ c 3).trans ((Region2.final (V5 m ρ) c).trans (by
    show comb 50000 128 (W5 m ρ c (Proc.devRef .tc main_v2_1)) (W5 m ρ c (Proc.devRef .tc main_v25))
      (W5 m ρ c (Proc.devRef .tc main_v30)) = _
    rw [b5_v2_1, b5_v25, b5_v30]
    rfl))

end Cert.KernelIdeal.Whole

end
-- ==== Proof.RefRead.lean ====
/-
  The reference's stages, read as the row functions of the specification.

  The reference computes the first projection with a transposed weight and a host product, the messages on flat
  per-edge vectors (weight over gathered normaliser, negated, exponentiated, then laid out as a column and repeated
  along the lanes), and the node update with the degree clamped below by one before it is laid out as a column.  Read
  at an entry these are the specification's linear map, message and node update: the transposed weight at (k, n) is
  the weight at (n, k); the negation of a quotient is zero less the quotient; a vector laid out as a column reads
  the vector at the row.  The scatter-adds and gathers are left as they are: the kernel applies the same ones.
-/
import proofs.«170920_j49632642073094_2_alg».proof.Proof.Gen.ReferenceIdeal.Read
import proofs.«170920_j49632642073094_2_alg».proof.Proof.EdgeConv
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.EdgeConv

/-- The message at (p, q), spelt out. -/
theorem msg_apply {A D : Nat} (w s : (⟨2, ![A, 1]⟩ : Shape).Idx → EReal) (h : (⟨2, ![A, D]⟩ : Shape).Idx → EReal)
    (p : Fin A) (q : Fin D) :
    msg A D w s h (ix2 p q) = Ideal.exp (Ideal.ofBits .f32 0x00000000#32
      - Ideal.div (w (ix2 p (0 : Fin 1))) (s (ix2 p (0 : Fin 1)))) * h (ix2 p q) := rfl

/-- The node update at (p, q), spelt out. -/
theorem comb_apply {A D : Nat} (y a : (⟨2, ![A, D]⟩ : Shape).Idx → EReal) (deg : (⟨2, ![A, 1]⟩ : Shape).Idx → EReal)
    (p : Fin A) (q : Fin D) :
    comb A D y a deg (ix2 p q)
      = y (ix2 p q) + Ideal.div (a (ix2 p q)) (max (deg (ix2 p (0 : Fin 1))) (Ideal.ofBits .f32 0x3F800000#32)) := rfl

/-- The host's negation at the ideal values is the negation of extended reals. -/
theorem hostNegf_eq (x : Ideal .f32) : (FloatOps.hostNegf x : Ideal .f32) = -x := rfl

/-- The negation of an extended real is the f32 zero less it. -/
theorem neg_eq_zero_sub (x : EReal) : -x = Ideal.ofBits .f32 0x00000000#32 - x := by
  rw [Ideal.ofBits_zero_f32, zero_sub]

/-- A per-edge vector laid out as a column reads the vector at the row. -/
theorem edgeCol_apply {α : Type} (v : S800000.Idx → α) (p : Fin 800000) (z : Fin 1) :
    broadcastInDim S800000x1 ![0] bcast_S800000_S800000x1_0 v (ix2 p z) = v (ix1 p) :=
  broadcastInDim_apply ![0] bcast_S800000_S800000x1_0 v (ix2 p z) (ix1 p) (fun a => match a with
    | ⟨0, _⟩ => by show p.val = if (800000 : Nat) = 1 then 0 else p.val; rw [if_neg (by decide)])

/-- A per-node vector laid out as a column reads the vector at the row. -/
theorem nodeCol_apply {α : Type} (v : S50000.Idx → α) (p : Fin 50000) (z : Fin 1) :
    broadcastInDim S50000x1 ![0] bcast_S50000_S50000x1_0 v (ix2 p z) = v (ix1 p) :=
  broadcastInDim_apply ![0] bcast_S50000_S50000x1_0 v (ix2 p z) (ix1 p) (fun a => match a with
    | ⟨0, _⟩ => by show p.val = if (50000 : Nat) = 1 then 0 else p.val; rw [if_neg (by decide)])

/-- The first projection is the linear map of the rows. -/
theorem v4_eq (x0 : (⟨S50000x128, .f32⟩ : BufTy).Contents (Elt Ideal)) (x4 : (⟨S128x128, .f32⟩ : BufTy).Contents (Elt Ideal)) (x5 : (⟨S128, .f32⟩ : BufTy).Contents (Elt Ideal)) :
    val_main_v4 (F := Ideal) x0 x4 x5 = proj 50000 128 128 x0 x4 x5 := by
  funext i
  obtain ⟨p, q, rfl⟩ : ∃ (p : Fin 50000) (q : Fin 128), i = ix2 p q := ⟨i 0, i 1, eq_ix2 i⟩
  rw [val_main_v4_apply, val_main_v1_apply, val_main_v3_apply, val_main_v2_apply]
  have el : ∀ k : Fin 128, lidx_main_v1 (ix2 p q) k = ix2 p k := fun k => funext fun a => Fin.ext (by
    match a with
    | ⟨0, _⟩ => rfl
    | ⟨1, _⟩ => rfl)
  have er : ∀ k : Fin 128, val_main_v0 (F := Ideal) x4 (ridx_main_v1 (ix2 p q) k) = x4 (ix2 q k) := fun k => by
    rw [val_main_v0_apply]
    exact congrArg x4 (funext fun a => Fin.ext (by
      match a with
      | ⟨0, _⟩ => rfl
      | ⟨1, _⟩ => rfl))
  have eb : idx_main_v2 (idx_main_v3 (ix2 p q)) = ix1 q := funext fun a => Fin.ext (by
    match a with
    | ⟨0, _⟩ => rfl)
  simp only [el, er, eb]
  rfl

/-- The self term is the linear map of the rows. -/
theorem v45_eq (x0 : (⟨S50000x128, .f32⟩ : BufTy).Contents (Elt Ideal)) (x6 : (⟨S128x128, .f32⟩ : BufTy).Contents (Elt Ideal)) (x7 : (⟨S128, .f32⟩ : BufTy).Contents (Elt Ideal)) :
    val_main_v45 (F := Ideal) x0 x6 x7 = proj 50000 128 128 x0 x6 x7 := by
  funext i
  obtain ⟨p, q, rfl⟩ : ∃ (p : Fin 50000) (q : Fin 128), i = ix2 p q := ⟨i 0, i 1, eq_ix2 i⟩
  rw [val_main_v45_apply, val_main_v42_apply, val_main_v44_apply, val_main_v43_apply]
  have el : ∀ k : Fin 128, lidx_main_v42 (ix2 p q) k = ix2 p k := fun k => funext fun a => Fin.ext (by
    match a with
    | ⟨0, _⟩ => rfl
    | ⟨1, _⟩ => rfl)
  have er : ∀ k : Fin 128, val_main_v41 (F := Ideal) x6 (ridx_main_v42 (ix2 p q) k) = x6 (ix2 q k) := fun k => by
    rw [val_main_v41_apply]
    exact congrArg x6 (funext fun a => Fin.ext (by
      match a with
      | ⟨0, _⟩ => rfl
      | ⟨1, _⟩ => rfl))
  have eb : idx_main_v43 (idx_main_v44 (ix2 p q)) = ix1 q := funext fun a => Fin.ext (by
    match a with
    | ⟨0, _⟩ => rfl)
  simp only [el, er, eb]
  rfl

/-- The messages are the message function of the weight column, the gathered normaliser as a column, and the
    gathered rows. -/
theorem v28_eq (x0 : (⟨S50000x128, .f32⟩ : BufTy).Contents (Elt Ideal)) (x1 : (⟨S800000x1, .f32⟩ : BufTy).Contents (Elt Ideal)) (x2 x3 : (⟨S800000, .i32⟩ : BufTy).Contents (Elt Ideal))
    (x4 : (⟨S128x128, .f32⟩ : BufTy).Contents (Elt Ideal)) (x5 : (⟨S128, .f32⟩ : BufTy).Contents (Elt Ideal)) :
    val_main_v28 (F := Ideal) x0 x1 x2 x3 x4 x5
      = msg 800000 128 x1 (broadcastInDim S800000x1 ![0] bcast_S800000_S800000x1_0 (val_main_v15 (F := Ideal) x1 x3))
          (val_main_v26 (F := Ideal) x0 x2 x4 x5) := by
  funext i
  obtain ⟨p, q, rfl⟩ : ∃ (p : Fin 800000) (q : Fin 128), i = ix2 p q := ⟨i 0, i 1, eq_ix2 i⟩
  rw [val_main_v28_apply, val_main_v27_apply, val_main_v19_apply, val_main_v18_apply, val_main_v17_apply,
    val_main_v16_apply, val_main_v5_apply]
  have e1 : idx_main_v19 (idx_main_v27 (ix2 p q)) = ix1 p := funext fun a => Fin.ext (by
    match a with
    | ⟨0, _⟩ => rfl)
  have e2 : idx_main_v5 (ix1 p) = ix2 p (0 : Fin 1) := funext fun a => Fin.ext (by
    match a with
    | ⟨0, _⟩ => show p.val / 1 = p.val; omega
    | ⟨1, _⟩ => rfl)
  rw [e1, e2, msg_apply, edgeCol_apply, ← neg_eq_zero_sub]
  simp only [Ideal.mulf_def, Ideal.hostUnary_exp_def, hostNegf_eq, Ideal.hostDivf_def]

/-- The result is the node update of the self term, the aggregated messages and the degree as a column. -/
theorem v46_eq (x0 : (⟨S50000x128, .f32⟩ : BufTy).Contents (Elt Ideal)) (x1 : (⟨S800000x1, .f32⟩ : BufTy).Contents (Elt Ideal)) (x2 x3 : (⟨S800000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v46 (F := Ideal) x0 x1 x2 x3 x4 x5 x6 x7
      = comb 50000 128 (proj 50000 128 128 x0 x6 x7) (val_main_v31 (F := Ideal) x0 x1 x2 x3 x4 x5)
          (broadcastInDim S50000x1 ![0] bcast_S50000_S50000x1_0 (val_main_v35 (F := Ideal) x3)) := by
  funext i
  obtain ⟨p, q, rfl⟩ : ∃ (p : Fin 50000) (q : Fin 128), i = ix2 p q := ⟨i 0, i 1, eq_ix2 i⟩
  rw [val_main_v46_apply, val_main_v40_apply, val_main_v39_apply, val_main_v38_apply, val_main_v37_apply,
    val_main_v36_apply, val_main_cst_6_apply, v45_eq]
  have e1 : idx_main_v38 (idx_main_v39 (ix2 p q)) = ix1 p := funext fun a => Fin.ext (by
    match a with
    | ⟨0, _⟩ => rfl)
  rw [e1, comb_apply, nodeCol_apply]
  simp only [Ideal.addf_def, Ideal.hostDivf_def, Ideal.maximumf_def, Ideal.ofBits_def]

end Cert.ReferenceIdeal.RefValue

end
-- ==== Proof.Bridge.lean ====
/-
  The kernel's result is the reference's result, as functions of the eight argument arrays.

  Both programs compute the node update of a self term, the aggregated messages and the degree column.  The self term
  and the projected rows are one linear map on each side (the kernel's bias row, read back as a vector, is the bias
  vector).  The normaliser, the gathered rows, the aggregate and the degree are the same scatter-adds and gathers of
  corresponding operands on both sides, so they are equal as soon as their operands are; none of them is opened.
  The messages are one function of the weight column, the normaliser column and the gathered rows on each side.
-/
import proofs.«170920_j49632642073094_2_alg».proof.Proof.KernelValue
import proofs.«170920_j49632642073094_2_alg».proof.Proof.RefRead

noncomputable section

namespace Cert.Bridge

open Idealize.ShloMosaic Idealize.ShloMosaic.ValueIdx Cert.EdgeConv

/-- A bias vector regrouped as one row and read back as a vector is the vector. -/
theorem rowVec_biasRow (b : (⟨⟨1, ![128]⟩, .f32⟩ : BufTy).Contents (Elt Ideal)) : rowVec (Cert.KernelIdeal.Whole.biasRow b) = b := by
  funext i
  obtain ⟨q, rfl⟩ : ∃ q : Fin 128, i = ix1 q := ⟨i 0, eq_ix1 i⟩
  exact shapeCast_apply b Cert.KernelIdeal.Facts₀.shapeCasts_S128_S1x128 (ix2 (0 : Fin 1) q) (ix1 q) (by
    rw [Shape.rowMajor_val_two, Shape.rowMajor_val_one]; show q.val = 0 * 128 + q.val; omega)

/-- THE TWO RESULTS ARE ONE FUNCTION of the argument arrays. -/
theorem out_eq (a0 : (⟨⟨2, ![50000, 128]⟩, .f32⟩ : BufTy).Contents (Elt Ideal)) (a1 : (⟨⟨2, ![800000, 1]⟩, .f32⟩ : BufTy).Contents (Elt Ideal)) (a2 a3 : (⟨⟨1, ![800000]⟩, .i32⟩ : BufTy).Contents (Elt Ideal))
    (a4 : (⟨⟨2, ![128, 128]⟩, .f32⟩ : BufTy).Contents (Elt Ideal)) (a5 : (⟨⟨1, ![128]⟩, .f32⟩ : BufTy).Contents (Elt Ideal)) (a6 : (⟨⟨2, ![128, 128]⟩, .f32⟩ : BufTy).Contents (Elt Ideal)) (a7 : (⟨⟨1, ![128]⟩, .f32⟩ : BufTy).Contents (Elt Ideal)) :
    Cert.KernelIdeal.Whole.out a0 a1 a2 a3 a4 a5 a6 a7
      = Cert.ReferenceIdeal.Read.val_main_v46 (F := Ideal) a0 a1 a2 a3 a4 a5 a6 a7 := by
  rw [Cert.ReferenceIdeal.RefValue.v46_eq]
  unfold Cert.KernelIdeal.Whole.out
  rw [rowVec_biasRow, rowVec_biasRow]
  have hw : Cert.KernelIdeal.Stretch.wsumDst (F := Ideal) a1 a3
      = broadcastInDim Cert.ReferenceIdeal.S800000x1 ![0] Cert.ReferenceIdeal.Facts₀.bcast_S800000_S800000x1_0
          (Cert.ReferenceIdeal.Read.val_main_v15 (F := Ideal) a1 a3) := rfl
  have hr : Cert.KernelIdeal.Stretch.rowsAt (F := Ideal) (proj 50000 128 128 a0 a4 a5) a2
      = Cert.ReferenceIdeal.Read.val_main_v26 (F := Ideal) a0 a2 a4 a5 := by
    rw [← Cert.ReferenceIdeal.RefValue.v4_eq]; rfl
  have h28 : msg 800000 128 a1 (Cert.KernelIdeal.Stretch.wsumDst (F := Ideal) a1 a3)
        (Cert.KernelIdeal.Stretch.rowsAt (F := Ideal) (proj 50000 128 128 a0 a4 a5) a2)
      = Cert.ReferenceIdeal.Read.val_main_v28 (F := Ideal) a0 a1 a2 a3 a4 a5 := by
    rw [Cert.ReferenceIdeal.RefValue.v28_eq, hw, hr]
  have ha : Cert.KernelIdeal.Stretch.aggAt (F := Ideal) (Cert.ReferenceIdeal.Read.val_main_v28 (F := Ideal) a0 a1 a2 a3 a4 a5) a3
      = Cert.ReferenceIdeal.Read.val_main_v31 (F := Ideal) a0 a1 a2 a3 a4 a5 := rfl
  have hd : Cert.KernelIdeal.Stretch.degCol (F := Ideal) a3
      = broadcastInDim Cert.ReferenceIdeal.S50000x1 ![0] Cert.ReferenceIdeal.Facts₀.bcast_S50000_S50000x1_0
          (Cert.ReferenceIdeal.Read.val_main_v35 (F := Ideal) a3) := rfl
  rw [h28, ha, hd]

end Cert.Bridge

end
-- ==== Proof.lean ====
/-
  An edge-weighted graph convolution: three passes over rows among host scatter-adds and gathers, against the plain
  array program.  Both programs compute, for every node r and feature d,

      out(r, d) = (sum_k feat(r, k) * W_self(d, k) + b_self(d)) + agg(r, d) / max (deg(r), 1),

  where agg sums, over the edges e into r, exp (0 - w(e) / wsum(dst(e))) * h(src(e), d), h is the linear map of the
  features with W_pool and b_pool, wsum(r) the sum of the weights of the edges into r, and deg(r) their number.  The
  kernel computes h and the self term in one pass over blocks of nodes, the messages in a pass over blocks of edges,
  and the last line in a pass over blocks of nodes; the sums over edges and the gathers are host operations in both
  programs, the same ones on corresponding operands.  At the ideal values each pass, read block by block, is its row
  function on the whole arrays (an entry depends on its row only, and the blocks tile the rows), and the reference's
  stages read to the same row functions; no law of arithmetic beyond -x = 0 - x is used, so the precondition is never
  opened.  The frames of the two kernel programs are the generated ones; the reference's frame is its generated run
  with the result dropped; the idealization rewrote nothing.
-/
import proofs.«170920_j49632642073094_2_alg».proof.Defs
import proofs.«170920_j49632642073094_2_alg».proof.Proof.Gen.Kernel
import proofs.«170920_j49632642073094_2_alg».proof.Proof.Gen.Kernel.Skeleton
import proofs.«170920_j49632642073094_2_alg».proof.Proof.Gen.Kernel.Launch
import proofs.«170920_j49632642073094_2_alg».proof.Proof.Gen.Kernel.Points
import proofs.«170920_j49632642073094_2_alg».proof.Proof.Gen.Kernel.Frame
import proofs.«170920_j49632642073094_2_alg».proof.Proof.Gen.KernelIdeal
import proofs.«170920_j49632642073094_2_alg».proof.Proof.Gen.KernelIdeal.Skeleton
import proofs.«170920_j49632642073094_2_alg».proof.Proof.Gen.KernelIdeal.Launch
import proofs.«170920_j49632642073094_2_alg».proof.Proof.Gen.KernelIdeal.Points
import proofs.«170920_j49632642073094_2_alg».proof.Proof.Gen.KernelIdeal.Frame
import proofs.«170920_j49632642073094_2_alg».proof.Proof.Gen.ReferenceIdeal
import proofs.«170920_j49632642073094_2_alg».proof.Proof.Gen.ReferenceIdeal.Run
import proofs.«170920_j49632642073094_2_alg».proof.Proof.Gen.ReferenceIdeal.Read
import proofs.«170920_j49632642073094_2_alg».proof.Proof.Gen.Pre_finite_inputs
import proofs.«170920_j49632642073094_2_alg».proof.Proof.KernelRun
import proofs.«170920_j49632642073094_2_alg».proof.Proof.KernelValue
import proofs.«170920_j49632642073094_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at one function of the argument arrays: the kernel's by its run and the
    walk through its boundaries, the reference's by its run and the reading of its stages. -/
theorem algebraic : Cert.algebraic_KernelIdeal_ReferenceIdeal := by
  intro m ρ m' ρ' _ hagree
  refine ⟨fun c => Cert.KernelIdeal.Whole.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.result_eq m ρ c), (h c).2⟩)
      (Cert.KernelIdeal.Whole.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, (hagree c).1, (hagree c).2.1, (hagree c).2.2.1, (hagree c).2.2.2.1, (hagree c).2.2.2.2.1, (hagree c).2.2.2.2.2.1, (hagree c).2.2.2.2.2.2.1, (hagree c).2.2.2.2.2.2.2]
    exact (Cert.Bridge.out_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
